-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 29
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v0_0 : Ref sig .tc := ⟨.hbm, 27, rfl⟩
abbrev main_v0_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v6) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v7) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LstmCell.lean ====
/-
  One step of an LSTM cell, entry by entry, on the extended reals.

  For a batch row `r` and a hidden unit `j`, each of the four gates g ∈ {i, f, o, c} has the pre-activation

      z_g(r, j) = (Σ_k x[r,k] · Wx_g[k,j]  +  Σ_k h[r,k] · Wh_g[k,j])  +  b_g[j],

  so entry (r, j) of the new state depends only on row `r` of `x` and of `h`, on column `j` of the eight weight
  matrices, on entry `j` of the four biases, and on `c_prev[r,j]`:

      c'[r,j] = σ(z_f) · c_prev[r,j] + σ(z_i) · tanh(z_c),          h'[r,j] = σ(z_o) · tanh(c'[r,j]),

  where σ(z) = 1 / (1 + e^(−z)) and every operation is the exact one on the extended reals. The grouping of the
  pre-activation — the two inner products added first, the bias last — is the one both programs compute, so no
  rearrangement of sums is needed anywhere, and nothing here asks the entries to be finite.
-/
import Idealize.ShloMosaic.PureOps.Ideal
import Idealize.ShloMosaic.Lib.ValueIdx

noncomputable section

namespace Cert.LstmCell

open Idealize.ShloMosaic Idealize.ShloMosaic.ValueIdx
open scoped BigOperators

/-- A matrix of extended reals with `a` rows and `b` columns. -/
abbrev Mat (a b : Nat) : Type := (⟨2, ![a, b]⟩ : Shape).Idx → EReal
/-- A vector of extended reals with `a` entries. -/
abbrev Row (a : Nat) : Type := (⟨1, ![a]⟩ : Shape).Idx → EReal

/-- A gate's pre-activation at one entry: a row of `x` against a column of `Wx`, a row of `h` against a column of
    `Wh`, the two inner products added, then the bias entry. -/
def preact (xr hr wx wh : Fin 1024 → EReal) (b : EReal) : EReal :=
  (∑ k : Fin 1024, xr k * wx k + ∑ k : Fin 1024, hr k * wh k) + b

/-- One entry of the new cell state: `σ(z_f) · c_prev + σ(z_i) · tanh(z_c)`. -/
def cellC (xr hr : Fin 1024 → EReal) (cp : EReal)
    (wxi whi : Fin 1024 → EReal) (bi : EReal) (wxf whf : Fin 1024 → EReal) (bf : EReal)
    (wxc whc : Fin 1024 → EReal) (bc : EReal) : EReal :=
  Ideal.logistic (preact xr hr wxf whf bf) * cp
    + Ideal.logistic (preact xr hr wxi whi bi) * Ideal.tanh (preact xr hr wxc whc bc)

/-- One entry of the new hidden state: `σ(z_o) · tanh(c')`. -/
def cellH (xr hr : Fin 1024 → EReal) (cp : EReal)
    (wxi whi : Fin 1024 → EReal) (bi : EReal) (wxf whf : Fin 1024 → EReal) (bf : EReal)
    (wxo who : Fin 1024 → EReal) (bo : EReal) (wxc whc : Fin 1024 → EReal) (bc : EReal) : EReal :=
  Ideal.logistic (preact xr hr wxo who bo) * Ideal.tanh (cellC xr hr cp wxi whi bi wxf whf bf wxc whc bc)

/-- Row `r` of a matrix with 1024 columns. -/
def rowOf {a : Nat} (x : Mat a 1024) (r : Fin a) : Fin 1024 → EReal := fun k => x (ix2 r k)
/-- Column `j` of a 1024 × 1024 matrix. -/
def colOf (w : Mat 1024 1024) (j : Fin 1024) : Fin 1024 → EReal := fun k => w (ix2 k j)

/-- Entry `(r, j)` of the new cell state, from the fifteen argument arrays the state depends on (the output gate's
    three do not enter). -/
def newCAt (x h cp : Mat 4096 1024) (igx igu : Mat 1024 1024) (ib : Row 1024) (fgx fgu : Mat 1024 1024) (fb : Row 1024)
    (cgx cgu : Mat 1024 1024) (cb : Row 1024) (r : Fin 4096) (j : Fin 1024) : EReal :=
  cellC (rowOf x r) (rowOf h r) (cp (ix2 r j)) (colOf igx j) (colOf igu j) (ib (ix1 j)) (colOf fgx j) (colOf fgu j) (fb (ix1 j))
    (colOf cgx j) (colOf cgu j) (cb (ix1 j))

/-- Entry `(r, j)` of the new hidden state. -/
def newHAt (x h cp : Mat 4096 1024) (igx igu : Mat 1024 1024) (ib : Row 1024) (fgx fgu : Mat 1024 1024) (fb : Row 1024)
    (ogx ogu : Mat 1024 1024) (ob : Row 1024) (cgx cgu : Mat 1024 1024) (cb : Row 1024) (r : Fin 4096) (j : Fin 1024) : EReal :=
  cellH (rowOf x r) (rowOf h r) (cp (ix2 r j)) (colOf igx j) (colOf igu j) (ib (ix1 j)) (colOf fgx j) (colOf fgu j) (fb (ix1 j))
    (colOf ogx j) (colOf ogu j) (ob (ix1 j)) (colOf cgx j) (colOf cgu j) (cb (ix1 j))

/-- The new cell state as one array. -/
def newC (x h cp : Mat 4096 1024) (igx igu : Mat 1024 1024) (ib : Row 1024) (fgx fgu : Mat 1024 1024) (fb : Row 1024)
    (cgx cgu : Mat 1024 1024) (cb : Row 1024) : Mat 4096 1024 :=
  fun i => newCAt x h cp igx igu ib fgx fgu fb cgx cgu cb (i 0) (i 1)

/-- The new hidden state as one array. -/
def newH (x h cp : Mat 4096 1024) (igx igu : Mat 1024 1024) (ib : Row 1024) (fgx fgu : Mat 1024 1024) (fb : Row 1024)
    (ogx ogu : Mat 1024 1024) (ob : Row 1024) (cgx cgu : Mat 1024 1024) (cb : Row 1024) : Mat 4096 1024 :=
  fun i => newHAt x h cp igx igu ib fgx fgu fb ogx ogu ob cgx cgu cb (i 0) (i 1)

theorem newC_ix2 (x h cp : Mat 4096 1024) (igx igu : Mat 1024 1024) (ib : Row 1024) (fgx fgu : Mat 1024 1024) (fb : Row 1024)
    (cgx cgu : Mat 1024 1024) (cb : Row 1024) (r : Fin 4096) (j : Fin 1024) :
    newC x h cp igx igu ib fgx fgu fb cgx cgu cb (ix2 r j) = newCAt x h cp igx igu ib fgx fgu fb cgx cgu cb r j := rfl

theorem newH_ix2 (x h cp : Mat 4096 1024) (igx igu : Mat 1024 1024) (ib : Row 1024) (fgx fgu : Mat 1024 1024) (fb : Row 1024)
    (ogx ogu : Mat 1024 1024) (ob : Row 1024) (cgx cgu : Mat 1024 1024) (cb : Row 1024) (r : Fin 4096) (j : Fin 1024) :
    newH x h cp igx igu ib fgx fgu fb ogx ogu ob cgx cgu cb (ix2 r j) = newHAt x h cp igx igu ib fgx fgu fb ogx ogu ob cgx cgu cb r j := rfl

/-- The float word `0x3F800000` is the number one. -/
theorem ofBits_one : Ideal.ofBits .f32 0x3F800000#32 = 1 := by
  simp [Ideal.ofBits, Ideal.ieee, -EReal.coe_mul]; norm_num

/-- The logistic function spelt as a quotient with the float word for one in both places: `1 / (1 + e^(−z))`. -/
theorem logistic_spelt (z : EReal) :
    Ideal.div (Ideal.ofBits .f32 0x3F800000#32) (Ideal.ofBits .f32 0x3F800000#32 + Ideal.exp (-z)) = Ideal.logistic z := by
  rw [ofBits_one]; rfl

end Cert.LstmCell

end
-- ==== Proof.BlockEntry.lean ====
/-
  What the kernel's body computes at one entry of its 256 × 1024 output blocks.

  The body holds a 256-row block of `x`, of `h` and of `c_prev`, the eight whole 1024 × 1024 weight matrices and the
  four biases as 1 × 1024 rows. Each gate is two block products into a zero accumulator, added, plus the bias row
  broadcast down the 256 rows. On the extended reals a block product into zero, read at entry (p, q), is the inner
  product of row `p` of the left block with column `q` of the right one; the narrowing of the two activation blocks
  to a shorter float format is the identity; the row broadcast reads the bias at `q`. So entry (p, q) of each stored
  block is the cell's entry (`Cert.LstmCell.cellC`, `cellH`) of row `p` of the activation blocks, column `q` of the
  weights and entry `q` of the biases.
-/
import proofs.«111160_j61486751809783_1_alg».proof.Proof.Gen.KernelIdeal.Skeleton
import proofs.«111160_j61486751809783_1_alg».proof.Proof.LstmCell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockEntry

open Cert.KernelIdeal Cert.KernelIdeal.Gen Idealize.ShloMosaic Idealize.ShloMosaic.ValueIdx Cert.LstmCell
open scoped BigOperators

/-- The block product's dimensions: [256, 1024] × [1024, 1024] → [256, 1024], contracting the left operand's columns
    with the right operand's rows. -/
abbrev D : DotDims S256x1024 S1024x1024 S256x1024 := dot_S256x1024_S1024x1024_S256x1024_1_0_0_1_n_n

/-! ## The product's operand indices at an output entry -/

theorem lhs_row (i : S256x1024.Idx) (c : D.contr.Idx) : (D.lhsIdx i c 0).val = (i 0).val := by
  unfold DotDims.lhsIdx
  rw [dif_neg (show ¬(0 : Fin S256x1024.rank) ∈ D.lhsBatch by decide), dif_pos (show (0 : Fin S256x1024.rank) ∈ D.lhsNonContracting by decide)]
  rfl

theorem lhs_col (i : S256x1024.Idx) (c : D.contr.Idx) : (D.lhsIdx i c 1).val = (c ⟨0, by decide⟩).val :=
  D.lhsIdx_val_of_single rfl i c

theorem rhs_row (i : S256x1024.Idx) (c : D.contr.Idx) : (D.rhsIdx i c 0).val = (c ⟨0, by decide⟩).val :=
  D.rhsIdx_val_of_single rfl i c

theorem rhs_col (i : S256x1024.Idx) (c : D.contr.Idx) : (D.rhsIdx i c 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-! ## A block product, a gate, and the two stored blocks at an entry -/

/-- A block product into the zero accumulator, at entry (p, q): row `p` of the left block against column `q` of the
    right one. -/
theorem matmul_at (l : FVec Ideal S256x1024 .bf16) (r : FVec Ideal S1024x1024 .bf16) (p : Fin 256) (q : Fin 1024) :
    matmul D none l r (constant (F := Ideal) S256x1024 .f32 0x00000000#32) (ix2 p q)
      = ∑ k : Fin 1024, l (ix2 p k) * r (ix2 k q) := by
  refine (Ideal.matmul_constant_zero_apply D none l r (ix2 p q)).trans ?_
  rw [← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 1024 rfl rfl).symm k) = ix2 k q := funext fun a => Fin.ext (by
    match a with
    | ⟨0, _⟩ => exact (rhs_row _ _).trans hk
    | ⟨1, _⟩ => exact rhs_col _ _)
  rw [el, er]

/-- A gate's pre-activation block at entry (p, q): the two inner products, added, plus the bias row's entry `q`. -/
theorem gate_at (xb hb : FVec Ideal S256x1024 .bf16) (wx wh : FVec Ideal S1024x1024 .bf16) (b : FVec Ideal S1x1024 .f32)
    (p : Fin 256) (q : Fin 1024) :
    addf (addf (matmul D none xb (shapeCast S1024x1024 wx shapeCasts_S1024x1024_S1024x1024) (constant (F := Ideal) S256x1024 .f32 0x00000000#32))
               (matmul D none hb (shapeCast S1024x1024 wh shapeCasts_S1024x1024_S1024x1024) (constant (F := Ideal) S256x1024 .f32 0x00000000#32)))
         (broadcastTo S256x1024 (shapeCast S1x1024 b shapeCasts_S1x1024_S1x1024) broadcasts_S1x1024_S256x1024) (ix2 p q)
      = preact (fun k => xb (ix2 p k)) (fun k => hb (ix2 p k)) (fun k => wx (ix2 k q)) (fun k => wh (ix2 k q))
          (b (ix2 (0 : Fin 1) q)) := by
  rw [shapeCast_self wx, shapeCast_self wh, shapeCast_self b]
  show (matmul D none xb wx (constant (F := Ideal) S256x1024 .f32 0x00000000#32) (ix2 p q)
        + matmul D none hb wh (constant (F := Ideal) S256x1024 .f32 0x00000000#32) (ix2 p q))
        + broadcastTo S256x1024 b broadcasts_S1x1024_S256x1024 (ix2 p q) = _
  rw [matmul_at xb wx p q, matmul_at hb wh p q, broadcastTo_1b_ab_apply b broadcasts_S1x1024_S256x1024 p q]
  rfl

/-- The input gate's block at an entry. -/
theorem inputGate_at (x0 x1 : FVec Ideal S256x1024 .f32) (x3 x4 : FVec Ideal S1024x1024 .bf16) (x5 : FVec Ideal S1x1024 .f32)
    (p : Fin 256) (q : Fin 1024) :
    k0_pay5 (F := Ideal) x0 x1 x3 x4 x5 (ix2 p q)
      = Ideal.logistic (preact (fun k => x0 (ix2 p k)) (fun k => x1 (ix2 p k)) (fun k => x3 (ix2 k q)) (fun k => x4 (ix2 k q))
          (x5 (ix2 (0 : Fin 1) q))) := by
  unfold k0_pay5 k0_pay3 k0_pay4
  exact congrArg Ideal.logistic (gate_at (truncf .bf16 x0 bitsLt_bf16_f32) (truncf .bf16 x1 bitsLt_bf16_f32) x3 x4 x5 p q)

/-- The forget gate's block at an entry. -/
theorem forgetGate_at (x0 x1 : FVec Ideal S256x1024 .f32) (x6 x7 : FVec Ideal S1024x1024 .bf16) (x8 : FVec Ideal S1x1024 .f32)
    (p : Fin 256) (q : Fin 1024) :
    k0_pay6 (F := Ideal) x0 x1 x6 x7 x8 (ix2 p q)
      = Ideal.logistic (preact (fun k => x0 (ix2 p k)) (fun k => x1 (ix2 p k)) (fun k => x6 (ix2 k q)) (fun k => x7 (ix2 k q))
          (x8 (ix2 (0 : Fin 1) q))) := by
  unfold k0_pay6 k0_pay3 k0_pay4
  exact congrArg Ideal.logistic (gate_at (truncf .bf16 x0 bitsLt_bf16_f32) (truncf .bf16 x1 bitsLt_bf16_f32) x6 x7 x8 p q)

/-- The stored cell-state block at an entry, from the narrowed activation blocks and the two gates already computed. -/
theorem cellBlock_at (xb hb : FVec Ideal S256x1024 .bf16) (cp ig fg : FVec Ideal S256x1024 .f32)
    (wx wh : FVec Ideal S1024x1024 .bf16) (b : FVec Ideal S1x1024 .f32) (p : Fin 256) (q : Fin 1024) :
    k0_pay1 (F := Ideal) xb hb cp ig fg wx wh b (ix2 p q)
      = fg (ix2 p q) * cp (ix2 p q) + ig (ix2 p q) * Ideal.tanh (preact (fun k => xb (ix2 p k)) (fun k => hb (ix2 p k))
          (fun k => wx (ix2 k q)) (fun k => wh (ix2 k q)) (b (ix2 (0 : Fin 1) q))) := by
  unfold k0_pay1
  exact congrArg (fun z => fg (ix2 p q) * cp (ix2 p q) + ig (ix2 p q) * Ideal.tanh z) (gate_at xb hb wx wh b p q)

/-- ENTRY (p, q) OF THE STORED CELL-STATE BLOCK is the cell's new state for row `p` of the activation blocks. -/
theorem storedC_at (x0 x1 x2 : FVec Ideal S256x1024 .f32) (x3 x4 : FVec Ideal S1024x1024 .bf16) (x5 : FVec Ideal S1x1024 .f32)
    (x6 x7 : FVec Ideal S1024x1024 .bf16) (x8 : FVec Ideal S1x1024 .f32)
    (x12 x13 : FVec Ideal S1024x1024 .bf16) (x14 : FVec Ideal S1x1024 .f32) (p : Fin 256) (q : Fin 1024) :
    k0_pay1 (F := Ideal) (k0_pay3 x0) (k0_pay4 x1) x2 (k0_pay5 x0 x1 x3 x4 x5) (k0_pay6 x0 x1 x6 x7 x8) x12 x13 x14 (ix2 p q)
      = cellC (fun k => x0 (ix2 p k)) (fun k => x1 (ix2 p k)) (x2 (ix2 p q))
          (fun k => x3 (ix2 k q)) (fun k => x4 (ix2 k q)) (x5 (ix2 (0 : Fin 1) q))
          (fun k => x6 (ix2 k q)) (fun k => x7 (ix2 k q)) (x8 (ix2 (0 : Fin 1) q))
          (fun k => x12 (ix2 k q)) (fun k => x13 (ix2 k q)) (x14 (ix2 (0 : Fin 1) q)) := by
  rw [cellBlock_at (k0_pay3 x0) (k0_pay4 x1) x2 (k0_pay5 x0 x1 x3 x4 x5) (k0_pay6 x0 x1 x6 x7 x8) x12 x13 x14 p q,
    inputGate_at x0 x1 x3 x4 x5 p q, forgetGate_at x0 x1 x6 x7 x8 p q]
  rfl

/-- ENTRY (p, q) OF THE STORED HIDDEN-STATE BLOCK is the cell's new hidden value for row `p` of the activation blocks. -/
theorem storedH_at (x0 x1 x2 : FVec Ideal S256x1024 .f32) (x3 x4 : FVec Ideal S1024x1024 .bf16) (x5 : FVec Ideal S1x1024 .f32)
    (x6 x7 : FVec Ideal S1024x1024 .bf16) (x8 : FVec Ideal S1x1024 .f32)
    (x9 x10 : FVec Ideal S1024x1024 .bf16) (x11 : FVec Ideal S1x1024 .f32)
    (x12 x13 : FVec Ideal S1024x1024 .bf16) (x14 : FVec Ideal S1x1024 .f32) (p : Fin 256) (q : Fin 1024) :
    k0_pay2 (F := Ideal) (k0_pay3 x0) (k0_pay4 x1) x2 (k0_pay5 x0 x1 x3 x4 x5) (k0_pay6 x0 x1 x6 x7 x8) (k0_pay7 x0 x9)
        x10 x11 x12 x13 x14 (ix2 p q)
      = cellH (fun k => x0 (ix2 p k)) (fun k => x1 (ix2 p k)) (x2 (ix2 p q))
          (fun k => x3 (ix2 k q)) (fun k => x4 (ix2 k q)) (x5 (ix2 (0 : Fin 1) q))
          (fun k => x6 (ix2 k q)) (fun k => x7 (ix2 k q)) (x8 (ix2 (0 : Fin 1) q))
          (fun k => x9 (ix2 k q)) (fun k => x10 (ix2 k q)) (x11 (ix2 (0 : Fin 1) q))
          (fun k => x12 (ix2 k q)) (fun k => x13 (ix2 k q)) (x14 (ix2 (0 : Fin 1) q)) := by
  have hg := gate_at (truncf .bf16 x0 bitsLt_bf16_f32) (truncf .bf16 x1 bitsLt_bf16_f32) x9 x10 x11 p q
  have hc := storedC_at x0 x1 x2 x3 x4 x5 x6 x7 x8 x12 x13 x14 p q
  unfold k0_pay2 k0_pay7
  unfold k0_pay3 k0_pay4 at hc ⊢
  exact congrArg₂ (fun a b => Ideal.logistic a * Ideal.tanh b) hg hc

end Cert.KernelIdeal.BlockEntry

end
-- ==== Proof.KernelArrays.lean ====
/-
  From the kernel's blocks to its two result arrays.

  The grid has 16 points; point `t` holds rows 256·t … 256·t + 255 of `x`, `h` and `c_prev`, the whole of each weight
  matrix and of each bias row, and writes back rows 256·t … 256·t + 255 of both results. Before the region the weight
  matrices are narrowed to a shorter float format — the identity on the extended reals — and each bias vector of 1024
  entries is recast as one row of 1024. So entry (p, q) of what point `t` writes is the cell's entry for row
  256·t + p and hidden unit q of the ARGUMENT arrays: every point writes its block of one and the same whole-array
  function (`Cert.LstmCell.newH`, `newC`), and the 16 blocks cover all 4096 rows.
-/
import proofs.«111160_j61486751809783_1_alg».proof.Proof.Gen.KernelIdeal.Value
import proofs.«111160_j61486751809783_1_alg».proof.Proof.BlockEntry
import Idealize.ShloMosaic.Lib.StableHlo.Run
import Idealize.ShloMosaic.Lib.ValueLayout

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.LstmCell Idealize.ShloMosaic.StableHlo
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-- The array row that row `p` of point `t`'s block is: 256·t + p. -/
def blockRow (t : Fin cfg0.N) (p : Fin 256) : Fin 4096 :=
  ⟨t.val * 256 + p.val, by
    have ht : t.val < grid0.N := t.isLt
    rw [N_0] at ht
    have hp := p.isLt
    omega⟩

/-! ## The windows' block indices, decided over the 16 points -/

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = t.val ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

theorem index15 : ∀ t : Fin cfg0.N, win0_15.index t (0 : Fin 2) = t.val ∧ win0_15.index t (1 : Fin 2) = 0 :=
  (by decide +kernel : ∀ t : Fin grid0.N, _)

theorem index16 : ∀ t : Fin cfg0.N, win0_16.index t (0 : Fin 2) = t.val ∧ win0_16.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 2) = 0 ∧ win0_6.index t (1 : Fin 2) = 0 :=
  (by decide +kernel : ∀ t : Fin grid0.N, _)

theorem index7 : ∀ t : Fin cfg0.N, win0_7.index t (0 : Fin 2) = 0 ∧ win0_7.index t (1 : Fin 2) = 0 :=
  (by decide +kernel : ∀ t : Fin grid0.N, _)

theorem index8 : ∀ t : Fin cfg0.N, win0_8.index t (0 : Fin 2) = 0 ∧ win0_8.index t (1 : Fin 2) = 0 :=
  (by decide +kernel : ∀ t : Fin grid0.N, _)

theorem index9 : ∀ t : Fin cfg0.N, win0_9.index t (0 : Fin 2) = 0 ∧ win0_9.index t (1 : Fin 2) = 0 :=
  (by decide +kernel : ∀ t : Fin grid0.N, _)

theorem index10 : ∀ t : Fin cfg0.N, win0_10.index t (0 : Fin 2) = 0 ∧ win0_10.index t (1 : Fin 2) = 0 :=
  (by decide +kernel : ∀ t : Fin grid0.N, _)

theorem index11 : ∀ t : Fin cfg0.N, win0_11.index t (0 : Fin 2) = 0 ∧ win0_11.index t (1 : Fin 2) = 0 :=
  (by decide +kernel : ∀ t : Fin grid0.N, _)

theorem index12 : ∀ t : Fin cfg0.N, win0_12.index t (0 : Fin 2) = 0 ∧ win0_12.index t (1 : Fin 2) = 0 :=
  (by decide +kernel : ∀ t : Fin grid0.N, _)

theorem index13 : ∀ t : Fin cfg0.N, win0_13.index t (0 : Fin 2) = 0 ∧ win0_13.index t (1 : Fin 2) = 0 :=
  (by decide +kernel : ∀ t : Fin grid0.N, _)

theorem index14 : ∀ t : Fin cfg0.N, win0_14.index t (0 : Fin 2) = 0 ∧ win0_14.index t (1 : Fin 2) = 0 :=
  (by decide +kernel : ∀ t : Fin grid0.N, _)

/-! ## The activation blocks: rows 256·t … of the argument arrays -/

theorem readRows0 (c : Dev nD) (t : Fin cfg0.N) (p : Fin 256) (k : Fin 1024) :
    iblk m c 0 t (ix2 p k) = (m ((c : Thread nD τ).loc main_arg0)) (ix2 (blockRow t p) k) := by
  show V m c main_arg0 (((cfg0.win 0).blk t).view.emb (ix2 p k)) = _
  rw [V_main_arg0]
  refine congrArg _ ?_
  funext a; apply Fin.ext
  obtain ⟨e0, e1⟩ := index0 t
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem readRows1 (c : Dev nD) (t : Fin cfg0.N) (p : Fin 256) (k : Fin 1024) :
    iblk m c 1 t (ix2 p k) = (m ((c : Thread nD τ).loc main_arg1)) (ix2 (blockRow t p) k) := by
  show V m c main_arg1 (((cfg0.win 1).blk t).view.emb (ix2 p k)) = _
  rw [V_main_arg1]
  refine congrArg _ ?_
  funext a; apply Fin.ext
  obtain ⟨e0, e1⟩ := index1 t
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

theorem readRows2 (c : Dev nD) (t : Fin cfg0.N) (p : Fin 256) (k : Fin 1024) :
    iblk m c 2 t (ix2 p k) = (m ((c : Thread nD τ).loc main_arg2)) (ix2 (blockRow t p) k) := by
  show V m c main_arg2 (((cfg0.win 2).blk t).view.emb (ix2 p k)) = _
  rw [V_main_arg2]
  refine congrArg _ ?_
  funext a; apply Fin.ext
  obtain ⟨e0, e1⟩ := index2 t
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-! ## The weight windows: the argument matrices, narrowed before the region (the identity here) -/

theorem found3 (c : Dev nD) : (V m c main_call0_v0 : S1024x1024.Idx → EReal) = (m ((c : Thread nD τ).loc main_arg3)) := by
  dsimp only [Gen.V, Gen.hostOps0]
  after_results
  rfl

theorem readWeights3 (c : Dev nD) (t : Fin cfg0.N) (k q : Fin 1024) :
    iblk m c 3 t (ix2 k q) = (m ((c : Thread nD τ).loc main_arg3)) (ix2 k q) := by
  show V m c main_call0_v0 (((cfg0.win 3).blk t).view.emb (ix2 k q)) = _
  rw [found3 m c]
  refine congrArg _ ?_
  funext a; apply Fin.ext
  obtain ⟨e0, e1⟩ := index3 t
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega

theorem found4 (c : Dev nD) : (V m c main_call0_v1 : S1024x1024.Idx → EReal) = (m ((c : Thread nD τ).loc main_arg4)) := by
  dsimp only [Gen.V, Gen.hostOps0]
  after_results
  rfl

theorem readWeights4 (c : Dev nD) (t : Fin cfg0.N) (k q : Fin 1024) :
    iblk m c 4 t (ix2 k q) = (m ((c : Thread nD τ).loc main_arg4)) (ix2 k q) := by
  show V m c main_call0_v1 (((cfg0.win 4).blk t).view.emb (ix2 k q)) = _
  rw [found4 m c]
  refine congrArg _ ?_
  funext a; apply Fin.ext
  obtain ⟨e0, e1⟩ := index4 t
  match a with
  | ⟨0, _⟩ => show win0_4.index t (0 : Fin 2) * 1024 + 1 * k.val = k.val; rw [e0]; omega
  | ⟨1, _⟩ => show win0_4.index t (1 : Fin 2) * 1024 + 1 * q.val = q.val; rw [e1]; omega

theorem found6 (c : Dev nD) : (V m c main_call0_v2 : S1024x1024.Idx → EReal) = (m ((c : Thread nD τ).loc main_arg6)) := by
  dsimp only [Gen.V, Gen.hostOps0]
  after_results
  rfl

theorem readWeights6 (c : Dev nD) (t : Fin cfg0.N) (k q : Fin 1024) :
    iblk m c 6 t (ix2 k q) = (m ((c : Thread nD τ).loc main_arg6)) (ix2 k q) := by
  show V m c main_call0_v2 (((cfg0.win 6).blk t).view.emb (ix2 k q)) = _
  rw [found6 m c]
  refine congrArg _ ?_
  funext a; apply Fin.ext
  obtain ⟨e0, e1⟩ := index6 t
  match a with
  | ⟨0, _⟩ => show win0_6.index t (0 : Fin 2) * 1024 + 1 * k.val = k.val; rw [e0]; omega
  | ⟨1, _⟩ => show win0_6.index t (1 : Fin 2) * 1024 + 1 * q.val = q.val; rw [e1]; omega

theorem found7 (c : Dev nD) : (V m c main_call0_v3 : S1024x1024.Idx → EReal) = (m ((c : Thread nD τ).loc main_arg7)) := by
  dsimp only [Gen.V, Gen.hostOps0]
  after_results
  rfl

theorem readWeights7 (c : Dev nD) (t : Fin cfg0.N) (k q : Fin 1024) :
    iblk m c 7 t (ix2 k q) = (m ((c : Thread nD τ).loc main_arg7)) (ix2 k q) := by
  show V m c main_call0_v3 (((cfg0.win 7).blk t).view.emb (ix2 k q)) = _
  rw [found7 m c]
  refine congrArg _ ?_
  funext a; apply Fin.ext
  obtain ⟨e0, e1⟩ := index7 t
  match a with
  | ⟨0, _⟩ => show win0_7.index t (0 : Fin 2) * 1024 + 1 * k.val = k.val; rw [e0]; omega
  | ⟨1, _⟩ => show win0_7.index t (1 : Fin 2) * 1024 + 1 * q.val = q.val; rw [e1]; omega

theorem found9 (c : Dev nD) : (V m c main_call0_v4 : S1024x1024.Idx → EReal) = (m ((c : Thread nD τ).loc main_arg9)) := by
  dsimp only [Gen.V, Gen.hostOps0]
  after_results
  rfl

theorem readWeights9 (c : Dev nD) (t : Fin cfg0.N) (k q : Fin 1024) :
    iblk m c 9 t (ix2 k q) = (m ((c : Thread nD τ).loc main_arg9)) (ix2 k q) := by
  show V m c main_call0_v4 (((cfg0.win 9).blk t).view.emb (ix2 k q)) = _
  rw [found9 m c]
  refine congrArg _ ?_
  funext a; apply Fin.ext
  obtain ⟨e0, e1⟩ := index9 t
  match a with
  | ⟨0, _⟩ => show win0_9.index t (0 : Fin 2) * 1024 + 1 * k.val = k.val; rw [e0]; omega
  | ⟨1, _⟩ => show win0_9.index t (1 : Fin 2) * 1024 + 1 * q.val = q.val; rw [e1]; omega

theorem found10 (c : Dev nD) : (V m c main_call0_v5 : S1024x1024.Idx → EReal) = (m ((c : Thread nD τ).loc main_arg10)) := by
  dsimp only [Gen.V, Gen.hostOps0]
  after_results
  rfl

theorem readWeights10 (c : Dev nD) (t : Fin cfg0.N) (k q : Fin 1024) :
    iblk m c 10 t (ix2 k q) = (m ((c : Thread nD τ).loc main_arg10)) (ix2 k q) := by
  show V m c main_call0_v5 (((cfg0.win 10).blk t).view.emb (ix2 k q)) = _
  rw [found10 m c]
  refine congrArg _ ?_
  funext a; apply Fin.ext
  obtain ⟨e0, e1⟩ := index10 t
  match a with
  | ⟨0, _⟩ => show win0_10.index t (0 : Fin 2) * 1024 + 1 * k.val = k.val; rw [e0]; omega
  | ⟨1, _⟩ => show win0_10.index t (1 : Fin 2) * 1024 + 1 * q.val = q.val; rw [e1]; omega

theorem found12 (c : Dev nD) : (V m c main_call0_v6 : S1024x1024.Idx → EReal) = (m ((c : Thread nD τ).loc main_arg12)) := by
  dsimp only [Gen.V, Gen.hostOps0]
  after_results
  rfl

theorem readWeights12 (c : Dev nD) (t : Fin cfg0.N) (k q : Fin 1024) :
    iblk m c 12 t (ix2 k q) = (m ((c : Thread nD τ).loc main_arg12)) (ix2 k q) := by
  show V m c main_call0_v6 (((cfg0.win 12).blk t).view.emb (ix2 k q)) = _
  rw [found12 m c]
  refine congrArg _ ?_
  funext a; apply Fin.ext
  obtain ⟨e0, e1⟩ := index12 t
  match a with
  | ⟨0, _⟩ => show win0_12.index t (0 : Fin 2) * 1024 + 1 * k.val = k.val; rw [e0]; omega
  | ⟨1, _⟩ => show win0_12.index t (1 : Fin 2) * 1024 + 1 * q.val = q.val; rw [e1]; omega

theorem found13 (c : Dev nD) : (V m c main_call0_v7 : S1024x1024.Idx → EReal) = (m ((c : Thread nD τ).loc main_arg13)) := by
  dsimp only [Gen.V, Gen.hostOps0]
  after_results
  rfl

theorem readWeights13 (c : Dev nD) (t : Fin cfg0.N) (k q : Fin 1024) :
    iblk m c 13 t (ix2 k q) = (m ((c : Thread nD τ).loc main_arg13)) (ix2 k q) := by
  show V m c main_call0_v7 (((cfg0.win 13).blk t).view.emb (ix2 k q)) = _
  rw [found13 m c]
  refine congrArg _ ?_
  funext a; apply Fin.ext
  obtain ⟨e0, e1⟩ := index13 t
  match a with
  | ⟨0, _⟩ => show win0_13.index t (0 : Fin 2) * 1024 + 1 * k.val = k.val; rw [e0]; omega
  | ⟨1, _⟩ => show win0_13.index t (1 : Fin 2) * 1024 + 1 * q.val = q.val; rw [e1]; omega

/-! ## The bias windows: the argument vectors recast as one row -/

theorem found5 (c : Dev nD) :
    (V m c main_call0_v8 : S1x1024.Idx → EReal) = shapeCast S1x1024 (m ((c : Thread nD τ).loc main_arg5)) shapeCasts_S1024_S1x1024 := by
  dsimp only [Gen.V, Gen.hostOps0]
  after_results
  rfl

theorem readBias5 (c : Dev nD) (t : Fin cfg0.N) (q : Fin 1024) :
    iblk m c 5 t (ix2 (0 : Fin 1) q) = (m ((c : Thread nD τ).loc main_arg5)) (ix1 q) := by
  show V m c main_call0_v8 (((cfg0.win 5).blk t).view.emb (ix2 (0 : Fin 1) q)) = _
  rw [found5 m c]
  have he : ((cfg0.win 5).blk t).view.emb (ix2 (0 : Fin 1) q) = ix2 (0 : Fin 1) q := by
    funext a; apply Fin.ext
    obtain ⟨e0, e1⟩ := index5 t
    match a with
    | ⟨0, _⟩ => show win0_5.index t (0 : Fin 2) * 1 + 1 * 0 = 0; rw [e0]
    | ⟨1, _⟩ => show win0_5.index t (1 : Fin 2) * 1024 + 1 * q.val = q.val; rw [e1]; omega
  rw [he]
  exact shapeCast_a_1a_apply _ _ 0 q

theorem found8 (c : Dev nD) :
    (V m c main_call0_v9 : S1x1024.Idx → EReal) = shapeCast S1x1024 (m ((c : Thread nD τ).loc main_arg8)) shapeCasts_S1024_S1x1024 := by
  dsimp only [Gen.V, Gen.hostOps0]
  after_results
  rfl

theorem readBias8 (c : Dev nD) (t : Fin cfg0.N) (q : Fin 1024) :
    iblk m c 8 t (ix2 (0 : Fin 1) q) = (m ((c : Thread nD τ).loc main_arg8)) (ix1 q) := by
  show V m c main_call0_v9 (((cfg0.win 8).blk t).view.emb (ix2 (0 : Fin 1) q)) = _
  rw [found8 m c]
  have he : ((cfg0.win 8).blk t).view.emb (ix2 (0 : Fin 1) q) = ix2 (0 : Fin 1) q := by
    funext a; apply Fin.ext
    obtain ⟨e0, e1⟩ := index8 t
    match a with
    | ⟨0, _⟩ => show win0_8.index t (0 : Fin 2) * 1 + 1 * 0 = 0; rw [e0]
    | ⟨1, _⟩ => show win0_8.index t (1 : Fin 2) * 1024 + 1 * q.val = q.val; rw [e1]; omega
  rw [he]
  exact shapeCast_a_1a_apply _ _ 0 q

theorem found11 (c : Dev nD) :
    (V m c main_call0_v10 : S1x1024.Idx → EReal) = shapeCast S1x1024 (m ((c : Thread nD τ).loc main_arg11)) shapeCasts_S1024_S1x1024 := by
  dsimp only [Gen.V, Gen.hostOps0]
  after_results
  rfl

theorem readBias11 (c : Dev nD) (t : Fin cfg0.N) (q : Fin 1024) :
    iblk m c 11 t (ix2 (0 : Fin 1) q) = (m ((c : Thread nD τ).loc main_arg11)) (ix1 q) := by
  show V m c main_call0_v10 (((cfg0.win 11).blk t).view.emb (ix2 (0 : Fin 1) q)) = _
  rw [found11 m c]
  have he : ((cfg0.win 11).blk t).view.emb (ix2 (0 : Fin 1) q) = ix2 (0 : Fin 1) q := by
    funext a; apply Fin.ext
    obtain ⟨e0, e1⟩ := index11 t
    match a with
    | ⟨0, _⟩ => show win0_11.index t (0 : Fin 2) * 1 + 1 * 0 = 0; rw [e0]
    | ⟨1, _⟩ => show win0_11.index t (1 : Fin 2) * 1024 + 1 * q.val = q.val; rw [e1]; omega
  rw [he]
  exact shapeCast_a_1a_apply _ _ 0 q

theorem found14 (c : Dev nD) :
    (V m c main_call0_v11 : S1x1024.Idx → EReal) = shapeCast S1x1024 (m ((c : Thread nD τ).loc main_arg14)) shapeCasts_S1024_S1x1024 := by
  dsimp only [Gen.V, Gen.hostOps0]
  after_results
  rfl

theorem readBias14 (c : Dev nD) (t : Fin cfg0.N) (q : Fin 1024) :
    iblk m c 14 t (ix2 (0 : Fin 1) q) = (m ((c : Thread nD τ).loc main_arg14)) (ix1 q) := by
  show V m c main_call0_v11 (((cfg0.win 14).blk t).view.emb (ix2 (0 : Fin 1) q)) = _
  rw [found14 m c]
  have he : ((cfg0.win 14).blk t).view.emb (ix2 (0 : Fin 1) q) = ix2 (0 : Fin 1) q := by
    funext a; apply Fin.ext
    obtain ⟨e0, e1⟩ := index14 t
    match a with
    | ⟨0, _⟩ => show win0_14.index t (0 : Fin 2) * 1 + 1 * 0 = 0; rw [e0]
    | ⟨1, _⟩ => show win0_14.index t (1 : Fin 2) * 1024 + 1 * q.val = q.val; rw [e1]; omega
  rw [he]
  exact shapeCast_a_1a_apply _ _ 0 q

/-! ## The output windows: where a block's entry lands, and that the blocks cover the arrays -/

theorem outEntry15 (t : Fin cfg0.N) (p : Fin 256) (q : Fin 1024) :
    ((cfg0.win 15).blk t).view.emb (ix2 p q) = ix2 (blockRow t p) q := by
  funext a; apply Fin.ext
  obtain ⟨e0, e1⟩ := index15 t
  match a with
  | ⟨0, _⟩ => show win0_15.index t (0 : Fin 2) * 256 + 1 * p.val = t.val * 256 + p.val; rw [e0]; omega
  | ⟨1, _⟩ => show win0_15.index t (1 : Fin 2) * 1024 + 1 * q.val = q.val; rw [e1]; omega

/-- An index of the array is in point `t`'s block iff each coordinate is in the block's range on its axis. -/
theorem mem_blk15 (t : Fin cfg0.N) (i : S4096x1024.Idx) :
    i ∈ ((cfg0.win 15).blk t).view.set ↔ ∀ a : Fin 2, win0_15.index t a * S256x1024.size a ≤ (i a).val
      ∧ (i a).val < win0_15.index t a * S256x1024.size a + S256x1024.size a := by
  show i ∈ ((View.whole main_v0_0).slice (win0_15.rect t)).set ↔ _
  rw [View.set_slice_whole, Rect.mem_set_unit]
  exact Iff.rfl

/-- Every index of the array lies in the block of the point its row names: rows 256·t … 256·t + 255 are point `t`'s. -/
theorem cover15 (i : S4096x1024.Idx) :
    ∃ t : Fin cfg0.N, (cfg0.win 15).flush t = true ∧ i ∈ ((cfg0.win 15).blk t).view.set := by
  have hi0 : (i 0).val < 4096 := (i 0).isLt
  have hi1 : (i 1).val < 1024 := (i 1).isLt
  have hN : grid0.N = 16 := N_0
  have hlt : (i 0).val / 256 < grid0.N := by rw [hN]; omega
  refine ⟨⟨(i 0).val / 256, hlt⟩, flush0_15 _, ?_⟩
  rw [mem_blk15]
  obtain ⟨e0, e1⟩ := index15 ⟨(i 0).val / 256, hlt⟩
  intro a
  match a with
  | ⟨0, _⟩ =>
    show win0_15.index ⟨(i 0).val / 256, hlt⟩ (0 : Fin 2) * 256 ≤ (i 0).val
      ∧ (i 0).val < win0_15.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_15.index ⟨(i 0).val / 256, hlt⟩ (1 : Fin 2) * 1024 ≤ (i 1).val
      ∧ (i 1).val < win0_15.index ⟨(i 0).val / 256, hlt⟩ (1 : Fin 2) * 1024 + 1024
    rw [e1]; omega

theorem outEntry16 (t : Fin cfg0.N) (p : Fin 256) (q : Fin 1024) :
    ((cfg0.win 16).blk t).view.emb (ix2 p q) = ix2 (blockRow t p) q := by
  funext a; apply Fin.ext
  obtain ⟨e0, e1⟩ := index16 t
  match a with
  | ⟨0, _⟩ => show win0_16.index t (0 : Fin 2) * 256 + 1 * p.val = t.val * 256 + p.val; rw [e0]; omega
  | ⟨1, _⟩ => show win0_16.index t (1 : Fin 2) * 1024 + 1 * q.val = q.val; rw [e1]; omega

/-- An index of the array is in point `t`'s block iff each coordinate is in the block's range on its axis. -/
theorem mem_blk16 (t : Fin cfg0.N) (i : S4096x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v0_1).slice (win0_16.rect t)).set ↔ _
  rw [View.set_slice_whole, Rect.mem_set_unit]
  exact Iff.rfl

/-- Every index of the array lies in the block of the point its row names: rows 256·t … 256·t + 255 are point `t`'s. -/
theorem cover16 (i : S4096x1024.Idx) :
    ∃ t : Fin cfg0.N, (cfg0.win 16).flush t = true ∧ i ∈ ((cfg0.win 16).blk t).view.set := by
  have hi0 : (i 0).val < 4096 := (i 0).isLt
  have hi1 : (i 1).val < 1024 := (i 1).isLt
  have hN : grid0.N = 16 := N_0
  have hlt : (i 0).val / 256 < grid0.N := by rw [hN]; omega
  refine ⟨⟨(i 0).val / 256, hlt⟩, flush0_16 _, ?_⟩
  rw [mem_blk16]
  obtain ⟨e0, e1⟩ := index16 ⟨(i 0).val / 256, hlt⟩
  intro a
  match a with
  | ⟨0, _⟩ =>
    show win0_16.index ⟨(i 0).val / 256, hlt⟩ (0 : Fin 2) * 256 ≤ (i 0).val
      ∧ (i 0).val < win0_16.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_16.index ⟨(i 0).val / 256, hlt⟩ (1 : Fin 2) * 1024 ≤ (i 1).val
      ∧ (i 1).val < win0_16.index ⟨(i 0).val / 256, hlt⟩ (1 : Fin 2) * 1024 + 1024
    rw [e1]; omega

/-! ## What each point writes back, and the arrays after the run -/

/-- Point `t` writes block `t` of the new hidden state of the argument arrays. -/
theorem flushedH (c : Dev nD) (t : Fin cfg0.N) :
    (dats m 0 c).flushed 15 t = ((cfg0.win 15).blk t).view.read (Elt Ideal) (newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Value.flushed15]
  unfold out0_15
  rw [View.canon_unit_zero offset_zero]
  simp only [View.ld_unit_zero (S := S256x1024) offset_zero, View.ld_unit_zero (S := S1024x1024) offset_zero,
    View.ld_unit_zero (S := S1x1024) offset_zero]
  funext y
  obtain ⟨p, q, rfl⟩ : ∃ (p : Fin 256) (q : Fin 1024), y = ix2 p q := ⟨y 0, y 1, eq_ix2 y⟩
  show k0_pay2 (F := Ideal) (k0_pay3 (iblk m c 0 t)) (k0_pay4 (iblk m c 1 t)) (iblk m c 2 t)
      (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t))
      (k0_pay7 (iblk m c 0 t) (iblk m c 9 t)) (iblk m c 10 t) (iblk m c 11 t) (iblk m c 12 t) (iblk m c 13 t) (iblk m c 14 t)
      (ix2 p q)
    = (newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (((cfg0.win 15).blk t).view.emb (ix2 p q))
  refine (BlockEntry.storedH_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [outEntry15 t p q]
  simp only [readRows0 m c t p, readRows1 m c t p, readRows2 m c t p, readWeights3 m c t, readWeights4 m c t, readBias5 m c t, readWeights6 m c t, readWeights7 m c t, readBias8 m c t, readWeights9 m c t, readWeights10 m c t, readBias11 m c t, readWeights12 m c t, readWeights13 m c t, readBias14 m c t]
  rfl

/-- Point `t` writes block `t` of the new cell state of the argument arrays. -/
theorem flushedC (c : Dev nD) (t : Fin cfg0.N) :
    (dats m 0 c).flushed 16 t = ((cfg0.win 16).blk t).view.read (Elt Ideal) (newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) := by
  rw [Value.flushed16]
  unfold out0_16
  rw [View.canon_unit_zero offset_zero]
  simp only [View.ld_unit_zero (S := S256x1024) offset_zero, View.ld_unit_zero (S := S1024x1024) offset_zero,
    View.ld_unit_zero (S := S1x1024) offset_zero]
  funext y
  obtain ⟨p, q, rfl⟩ : ∃ (p : Fin 256) (q : Fin 1024), y = ix2 p q := ⟨y 0, y 1, eq_ix2 y⟩
  show k0_pay1 (F := Ideal) (k0_pay3 (iblk m c 0 t)) (k0_pay4 (iblk m c 1 t)) (iblk m c 2 t)
      (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t))
      (iblk m c 12 t) (iblk m c 13 t) (iblk m c 14 t) (ix2 p q)
    = (newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) (((cfg0.win 16).blk t).view.emb (ix2 p q))
  refine (BlockEntry.storedC_at (iblk m c 0 t) (iblk m c 1 t) (iblk m c 2 t) (iblk m c 3 t) (iblk m c 4 t) (iblk m c 5 t) (iblk m c 6 t) (iblk m c 7 t) (iblk m c 8 t) (iblk m c 12 t) (iblk m c 13 t) (iblk m c 14 t) p q).trans ?_
  rw [outEntry16 t p q]
  simp only [readRows0 m c t p, readRows1 m c t p, readRows2 m c t p, readWeights3 m c t, readWeights4 m c t, readBias5 m c t, readWeights6 m c t, readWeights7 m c t, readBias8 m c t, readWeights12 m c t, readWeights13 m c t, readBias14 m c t]
  rfl

/-- THE HIDDEN-STATE ARRAY after the run is the cell's new hidden state of the argument arrays. -/
theorem finalH (c : Dev nD) : (dats m 0 c).arrAt 15 cfg0.N = (newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (dats m 0 c).arrAt_eq_of_cover 15 _ (fun t _ => flushedH m c t) cover15

/-- THE CELL-STATE ARRAY after the run is the cell's new cell state of the argument arrays. -/
theorem finalC (c : Dev nD) : (dats m 0 c).arrAt 16 cfg0.N = (newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) :=
  (dats m 0 c).arrAt_eq_of_cover 16 _ (fun t _ => flushedC m c t) cover16

/-- The kernel's run: every weakly fair execution ends with the two results at the cell's new hidden and cell state of
    the argument arrays, and the arguments unchanged. -/
theorem run : θ_run defs (onTc (τ := τ) (main (F := Ideal))) ⟨m, fun _ => 0, ρ⟩ fun r => ∀ c : Dev nD,
      r.2.mem ((c : Thread nD τ).loc main_v0_0) = (newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
      ∧ r.2.mem ((c : Thread nD τ).loc main_v0_1) = (newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (finalH m c), (h c).2.1.trans (finalC m c), (h c).2.2⟩)
    (Value.run_blocks m ρ)

end Cert.KernelIdeal.Arrays

end
-- ==== Proof.RefEntry.lean ====
/-
  What the reference computes at one entry of its two results.

  The reference joins the four gates' weight matrices side by side into two 1024 × 4096 matrices — input, forget,
  output, candidate, so that columns g·1024 … g·1024 + 1023 are gate g's — and the four biases end to end into one
  vector of 4096 entries. It forms every pre-activation at once as a 4096 × 4096 array and cuts the four bands of 1024
  columns out of it again. Entry (r, g·1024 + j) of that array reads column g·1024 + j of the joined matrices, which is
  column j of gate g's own two matrices, and entry g·1024 + j of the joined bias, which is entry j of gate g's bias:
  it is the cell's pre-activation z_g(r, j) (`Cert.LstmCell.preact`). The logistic function is spelt
  1 / (1 + e^(−z)) with the float word for one in both places, which is the logistic function itself.
-/
import proofs.«111160_j61486751809783_1_alg».proof.Proof.Gen.ReferenceIdeal.Read
import proofs.«111160_j61486751809783_1_alg».proof.Proof.LstmCell
import Idealize.ShloMosaic.Lib.ValueIdx
import Idealize.ShloMosaic.Lib.Pipeline.Value

noncomputable section

namespace Cert.ReferenceIdeal.Entry

open Cert.ReferenceIdeal Cert.ReferenceIdeal.Gen Cert.ReferenceIdeal.Read Idealize.ShloMosaic Idealize.ShloMosaic.ValueIdx Cert.LstmCell
open scoped BigOperators

/-! ## The joined weights and the joined bias, read inside one gate's band -/

/-- Four 1024 × 1024 matrices joined side by side: at row `k`, column `g·1024 + j` of the result is entry (k, j) of the
    g-th matrix. -/
theorem joinedCols_at {α : Type} (a b c d : S1024x1024.Idx → α) (jj : S1024x4096.Idx) (k j : Fin 1024)
    (h0 : (jj 0).val = k.val) :
    ((jj 1).val = j.val → concatenate S1024x4096 1 [⟨S1024x1024, a⟩, ⟨S1024x1024, b⟩, ⟨S1024x1024, c⟩, ⟨S1024x1024, d⟩]
        concatenates_S1024x1024_S1024x1024_S1024x1024_S1024x1024_S1024x4096_d1 jj = a (ix2 k j))
    ∧ ((jj 1).val = 1024 + j.val → concatenate S1024x4096 1 [⟨S1024x1024, a⟩, ⟨S1024x1024, b⟩, ⟨S1024x1024, c⟩, ⟨S1024x1024, d⟩]
        concatenates_S1024x1024_S1024x1024_S1024x1024_S1024x1024_S1024x4096_d1 jj = b (ix2 k j))
    ∧ ((jj 1).val = 2048 + j.val → concatenate S1024x4096 1 [⟨S1024x1024, a⟩, ⟨S1024x1024, b⟩, ⟨S1024x1024, c⟩, ⟨S1024x1024, d⟩]
        concatenates_S1024x1024_S1024x1024_S1024x1024_S1024x1024_S1024x4096_d1 jj = c (ix2 k j))
    ∧ ((jj 1).val = 3072 + j.val → concatenate S1024x4096 1 [⟨S1024x1024, a⟩, ⟨S1024x1024, b⟩, ⟨S1024x1024, c⟩, ⟨S1024x1024, d⟩]
        concatenates_S1024x1024_S1024x1024_S1024x1024_S1024x1024_S1024x4096_d1 jj = d (ix2 k j)) := by
  refine ⟨fun h1 => ?_, fun h1 => ?_, fun h1 => ?_, fun h1 => ?_⟩
  · exact concatenate_apply_piece 1 _ _ jj 0 (by show (0 : Nat) < 4; omega) S1024x1024 a rfl rfl 0 rfl (ix2 k j)
      (fun ax hax => by
        match ax with
        | ⟨0, _⟩ => exact h0.symm
        | ⟨1, _⟩ => exact absurd rfl hax)
      (by show 0 + j.val = (jj 1).val; omega)
  · exact concatenate_apply_piece 1 _ _ jj 1 (by show (1 : Nat) < 4; omega) S1024x1024 b rfl rfl 1024 rfl (ix2 k j)
      (fun ax hax => by
        match ax with
        | ⟨0, _⟩ => exact h0.symm
        | ⟨1, _⟩ => exact absurd rfl hax)
      (by show 1024 + j.val = (jj 1).val; omega)
  · exact concatenate_apply_piece 1 _ _ jj 2 (by show (2 : Nat) < 4; omega) S1024x1024 c rfl rfl 2048 rfl (ix2 k j)
      (fun ax hax => by
        match ax with
        | ⟨0, _⟩ => exact h0.symm
        | ⟨1, _⟩ => exact absurd rfl hax)
      (by show 2048 + j.val = (jj 1).val; omega)
  · exact concatenate_apply_piece 1 _ _ jj 3 (by show (3 : Nat) < 4; omega) S1024x1024 d rfl rfl 3072 rfl (ix2 k j)
      (fun ax hax => by
        match ax with
        | ⟨0, _⟩ => exact h0.symm
        | ⟨1, _⟩ => exact absurd rfl hax)
      (by show 3072 + j.val = (jj 1).val; omega)

/-- Four vectors of 1024 entries joined end to end: entry `g·1024 + j` of the result is entry `j` of the g-th vector. -/
theorem joinedBias_at {α : Type} (a b c d : S1024.Idx → α) (jj : S4096.Idx) (j : Fin 1024) :
    ((jj 0).val = j.val → concatenate S4096 0 [⟨S1024, a⟩, ⟨S1024, b⟩, ⟨S1024, c⟩, ⟨S1024, d⟩] concatenates_S1024_S1024_S1024_S1024_S4096_d0 jj = a (ix1 j))
    ∧ ((jj 0).val = 1024 + j.val → concatenate S4096 0 [⟨S1024, a⟩, ⟨S1024, b⟩, ⟨S1024, c⟩, ⟨S1024, d⟩] concatenates_S1024_S1024_S1024_S1024_S4096_d0 jj = b (ix1 j))
    ∧ ((jj 0).val = 2048 + j.val → concatenate S4096 0 [⟨S1024, a⟩, ⟨S1024, b⟩, ⟨S1024, c⟩, ⟨S1024, d⟩] concatenates_S1024_S1024_S1024_S1024_S4096_d0 jj = c (ix1 j))
    ∧ ((jj 0).val = 3072 + j.val → concatenate S4096 0 [⟨S1024, a⟩, ⟨S1024, b⟩, ⟨S1024, c⟩, ⟨S1024, d⟩] concatenates_S1024_S1024_S1024_S1024_S4096_d0 jj = d (ix1 j)) := by
  refine ⟨fun h1 => ?_, fun h1 => ?_, fun h1 => ?_, fun h1 => ?_⟩
  · exact concatenate_apply_piece 0 _ _ jj 0 (by show (0 : Nat) < 4; omega) S1024 a rfl rfl 0 rfl (ix1 j)
      (fun ax hax => by
        match ax with
        | ⟨0, _⟩ => exact absurd rfl hax)
      (by show 0 + j.val = (jj 0).val; omega)
  · exact concatenate_apply_piece 0 _ _ jj 1 (by show (1 : Nat) < 4; omega) S1024 b rfl rfl 1024 rfl (ix1 j)
      (fun ax hax => by
        match ax with
        | ⟨0, _⟩ => exact absurd rfl hax)
      (by show 1024 + j.val = (jj 0).val; omega)
  · exact concatenate_apply_piece 0 _ _ jj 2 (by show (2 : Nat) < 4; omega) S1024 c rfl rfl 2048 rfl (ix1 j)
      (fun ax hax => by
        match ax with
        | ⟨0, _⟩ => exact absurd rfl hax)
      (by show 2048 + j.val = (jj 0).val; omega)
  · exact concatenate_apply_piece 0 _ _ jj 3 (by show (3 : Nat) < 4; omega) S1024 d rfl rfl 3072 rfl (ix1 j)
      (fun ax hax => by
        match ax with
        | ⟨0, _⟩ => exact absurd rfl hax)
      (by show 3072 + j.val = (jj 0).val; omega)

/-! ## The array of all pre-activations at an entry -/

theorem xRow_at (jj : S4096x4096.Idx) (r : Fin 4096) (h0 : (jj 0).val = r.val) (k : Fin 1024) :
    lidx_main_v3 jj k = ix2 r k :=
  funext fun a => Fin.ext (by
    match a with
    | ⟨0, _⟩ => exact h0
    | ⟨1, _⟩ => rfl)

theorem hRow_at (jj : S4096x4096.Idx) (r : Fin 4096) (h0 : (jj 0).val = r.val) (k : Fin 1024) :
    lidx_main_v4 jj k = ix2 r k :=
  funext fun a => Fin.ext (by
    match a with
    | ⟨0, _⟩ => exact h0
    | ⟨1, _⟩ => rfl)

/-- The 4096 × 4096 array of pre-activations at an index of row `r` whose column lies in the band of the gate with
    matrices `wx`, `wh` and bias `b`, at offset `j` inside the band (`hx`, `hh`, `hb`: what the joined arrays hold
    there): the cell's pre-activation of that gate. -/
theorem preact_at (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024)
    (wx wh : Mat 1024 1024) (b : Row 1024) (jj : S4096x4096.Idx) (r : Fin 4096) (j : Fin 1024) (h0 : (jj 0).val = r.val)
    (hx : ∀ k : Fin 1024, val_main_v0 (F := Ideal) x3 x6 x9 x12 (ridx_main_v3 jj k) = wx (ix2 k j))
    (hh : ∀ k : Fin 1024, val_main_v1 (F := Ideal) x4 x7 x10 x13 (ridx_main_v4 jj k) = wh (ix2 k j))
    (hb : val_main_v2 (F := Ideal) x5 x8 x11 x14 (idx_main_v6 (idx_main_v7 jj)) = b (ix1 j)) :
    val_main_v8 (F := Ideal) x0 x1 x3 x4 x5 x6 x7 x8 x9 x10 x11 x12 x13 x14 jj
      = preact (rowOf x0 r) (rowOf x1 r) (colOf wx j) (colOf wh j) (b (ix1 j)) := by
  rw [val_main_v8_apply, val_main_v5_apply, val_main_v3_apply, val_main_v4_apply, val_main_v7_apply, val_main_v6_apply, hb]
  simp only [hx, hh, xRow_at jj r h0, hRow_at jj r h0]
  rfl

/-- The first band: the input gate's pre-activation. -/
theorem preInput (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (r : Fin 4096) (j : Fin 1024) :
    val_main_v9 (F := Ideal) x0 x1 x3 x4 x5 x6 x7 x8 x9 x10 x11 x12 x13 x14 (ix2 r j)
      = preact (rowOf x0 r) (rowOf x1 r) (colOf x3 j) (colOf x4 j) (x5 (ix1 j)) := by
  rw [val_main_v9_apply]
  exact preact_at x0 x1 x3 x4 x5 x6 x7 x8 x9 x10 x11 x12 x13 x14 x3 x4 x5 (idx_main_v9 (ix2 r j)) r j rfl
    (fun k => (joinedCols_at x3 x6 x9 x12 _ k j rfl).1 rfl)
    (fun k => (joinedCols_at x4 x7 x10 x13 _ k j rfl).1 rfl)
    ((joinedBias_at x5 x8 x11 x14 _ j).1 rfl)

/-- The second band: the forget gate's pre-activation. -/
theorem preForget (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (r : Fin 4096) (j : Fin 1024) :
    val_main_v16 (F := Ideal) x0 x1 x3 x4 x5 x6 x7 x8 x9 x10 x11 x12 x13 x14 (ix2 r j)
      = preact (rowOf x0 r) (rowOf x1 r) (colOf x6 j) (colOf x7 j) (x8 (ix1 j)) := by
  rw [val_main_v16_apply]
  exact preact_at x0 x1 x3 x4 x5 x6 x7 x8 x9 x10 x11 x12 x13 x14 x6 x7 x8 (idx_main_v16 (ix2 r j)) r j rfl
    (fun k => (joinedCols_at x3 x6 x9 x12 _ k j rfl).2.1 rfl)
    (fun k => (joinedCols_at x4 x7 x10 x13 _ k j rfl).2.1 rfl)
    ((joinedBias_at x5 x8 x11 x14 _ j).2.1 rfl)

/-- The third band: the output gate's pre-activation. -/
theorem preOutput (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (r : Fin 4096) (j : Fin 1024) :
    val_main_v23 (F := Ideal) x0 x1 x3 x4 x5 x6 x7 x8 x9 x10 x11 x12 x13 x14 (ix2 r j)
      = preact (rowOf x0 r) (rowOf x1 r) (colOf x9 j) (colOf x10 j) (x11 (ix1 j)) := by
  rw [val_main_v23_apply]
  exact preact_at x0 x1 x3 x4 x5 x6 x7 x8 x9 x10 x11 x12 x13 x14 x9 x10 x11 (idx_main_v23 (ix2 r j)) r j rfl
    (fun k => (joinedCols_at x3 x6 x9 x12 _ k j rfl).2.2.1 rfl)
    (fun k => (joinedCols_at x4 x7 x10 x13 _ k j rfl).2.2.1 rfl)
    ((joinedBias_at x5 x8 x11 x14 _ j).2.2.1 rfl)

/-- The fourth band: the candidate's pre-activation. -/
theorem preCandidate (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (r : Fin 4096) (j : Fin 1024) :
    val_main_v30 (F := Ideal) x0 x1 x3 x4 x5 x6 x7 x8 x9 x10 x11 x12 x13 x14 (ix2 r j)
      = preact (rowOf x0 r) (rowOf x1 r) (colOf x12 j) (colOf x13 j) (x14 (ix1 j)) := by
  rw [val_main_v30_apply]
  exact preact_at x0 x1 x3 x4 x5 x6 x7 x8 x9 x10 x11 x12 x13 x14 x12 x13 x14 (idx_main_v30 (ix2 r j)) r j rfl
    (fun k => (joinedCols_at x3 x6 x9 x12 _ k j rfl).2.2.2 rfl)
    (fun k => (joinedCols_at x4 x7 x10 x13 _ k j rfl).2.2.2 rfl)
    ((joinedBias_at x5 x8 x11 x14 _ j).2.2.2 rfl)

/-! ## The logistic function as the reference spells it -/

/-- The input gate: `1 / (1 + e^(−z))` of the first band is the logistic function of it. -/
theorem sigInput (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (i : S4096x1024.Idx) :
    val_main_v15 (F := Ideal) x0 x1 x3 x4 x5 x6 x7 x8 x9 x10 x11 x12 x13 x14 i = Ideal.logistic (val_main_v9 (F := Ideal) x0 x1 x3 x4 x5 x6 x7 x8 x9 x10 x11 x12 x13 x14 i) := by
  rw [val_main_v15_apply, val_main_v14_apply, val_main_cst_0_apply, val_main_v13_apply, val_main_v12_apply,
    val_main_cst_apply, val_main_v11_apply, val_main_v10_apply]
  exact logistic_spelt _

/-- The forget gate. -/
theorem sigForget (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (i : S4096x1024.Idx) :
    val_main_v22 (F := Ideal) x0 x1 x3 x4 x5 x6 x7 x8 x9 x10 x11 x12 x13 x14 i = Ideal.logistic (val_main_v16 (F := Ideal) x0 x1 x3 x4 x5 x6 x7 x8 x9 x10 x11 x12 x13 x14 i) := by
  rw [val_main_v22_apply, val_main_v21_apply, val_main_cst_2_apply, val_main_v20_apply, val_main_v19_apply,
    val_main_cst_1_apply, val_main_v18_apply, val_main_v17_apply]
  exact logistic_spelt _

/-- The output gate. -/
theorem sigOutput (x0 x1 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (i : S4096x1024.Idx) :
    val_main_v29 (F := Ideal) x0 x1 x3 x4 x5 x6 x7 x8 x9 x10 x11 x12 x13 x14 i = Ideal.logistic (val_main_v23 (F := Ideal) x0 x1 x3 x4 x5 x6 x7 x8 x9 x10 x11 x12 x13 x14 i) := by
  rw [val_main_v29_apply, val_main_v28_apply, val_main_cst_4_apply, val_main_v27_apply, val_main_v26_apply,
    val_main_cst_3_apply, val_main_v25_apply, val_main_v24_apply]
  exact logistic_spelt _

/-! ## The two results -/

/-- Entry (r, j) of the reference's new cell state. -/
theorem refC_at (x0 x1 x2 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (r : Fin 4096) (j : Fin 1024) :
    val_main_v34 (F := Ideal) x0 x1 x2 x3 x4 x5 x6 x7 x8 x9 x10 x11 x12 x13 x14 (ix2 r j) = newCAt x0 x1 x2 x3 x4 x5 x6 x7 x8 x12 x13 x14 r j := by
  rw [val_main_v34_apply, val_main_v32_apply, val_main_v33_apply, val_main_v31_apply, sigForget, sigInput,
    preForget, preInput, preCandidate]
  rfl

/-- Entry (r, j) of the reference's new hidden state. -/
theorem refH_at (x0 x1 x2 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) (r : Fin 4096) (j : Fin 1024) :
    val_main_v36 (F := Ideal) x0 x1 x2 x3 x4 x5 x6 x7 x8 x9 x10 x11 x12 x13 x14 (ix2 r j) = newHAt x0 x1 x2 x3 x4 x5 x6 x7 x8 x9 x10 x11 x12 x13 x14 r j := by
  rw [val_main_v36_apply, val_main_v35_apply, sigOutput, preOutput, refC_at]
  rfl

/-- THE REFERENCE'S NEW CELL STATE is the cell's, as one array. -/
theorem refC (x0 x1 x2 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) :
    val_main_v34 (F := Ideal) x0 x1 x2 x3 x4 x5 x6 x7 x8 x9 x10 x11 x12 x13 x14 = newC x0 x1 x2 x3 x4 x5 x6 x7 x8 x12 x13 x14 := by
  funext i
  obtain ⟨r, j, rfl⟩ : ∃ (r : Fin 4096) (j : Fin 1024), i = ix2 r j := ⟨i 0, i 1, eq_ix2 i⟩
  exact refC_at x0 x1 x2 x3 x4 x5 x6 x7 x8 x9 x10 x11 x12 x13 x14 r j

/-- THE REFERENCE'S NEW HIDDEN STATE is the cell's, as one array. -/
theorem refH (x0 x1 x2 : Mat 4096 1024) (x3 x4 : Mat 1024 1024) (x5 : Row 1024) (x6 x7 : Mat 1024 1024) (x8 : Row 1024)
    (x9 x10 : Mat 1024 1024) (x11 : Row 1024) (x12 x13 : Mat 1024 1024) (x14 : Row 1024) :
    val_main_v36 (F := Ideal) x0 x1 x2 x3 x4 x5 x6 x7 x8 x9 x10 x11 x12 x13 x14 = newH x0 x1 x2 x3 x4 x5 x6 x7 x8 x9 x10 x11 x12 x13 x14 := by
  funext i
  obtain ⟨r, j, rfl⟩ : ∃ (r : Fin 4096) (j : Fin 1024), i = ix2 r j := ⟨i 0, i 1, eq_ix2 i⟩
  exact refH_at x0 x1 x2 x3 x4 x5 x6 x7 x8 x9 x10 x11 x12 x13 x14 r j

end Cert.ReferenceIdeal.Entry

end
-- ==== Proof.lean ====
/-
  One step of an LSTM cell, computed two ways, gives the same new hidden state and the same new cell state on the
  extended reals.

  The kernel walks the 4096 batch rows in 16 blocks of 256. For each block it forms the four gates' pre-activations
      z_g = (x·Wx_g + h·Wh_g) + b_g          (g = input, forget, output, candidate)
  as two block products into a zero accumulator, added, plus the bias row broadcast down the block, and stores
      c' = σ(z_f)·c_prev + σ(z_i)·tanh(z_c),        h' = σ(z_o)·tanh(c').
  Its weights are narrowed to a shorter float format before the region and its activations inside it; on the extended
  reals a change of format is the identity.

  The reference joins the four gates' weights side by side and the four biases end to end, forms all pre-activations as
  one 4096 × 4096 array (x·Wx + h·Wh) + b, and cuts the four bands of 1024 columns out of it; it spells σ(z) as
  1 / (1 + e^(−z)).

  Both are the same function of the fifteen arguments, entry by entry (`Cert.LstmCell.newH`, `newC`): band g of the joined
  arrays is gate g's own arrays, the sums are grouped alike on both sides, a block product into zero is the plain inner
  product, and 1 / (1 + e^(−z)) with the float word for one is the logistic function. No rearrangement of a sum and no
  cancellation is used, so the equality holds at every extended-real input and the finiteness precondition is never
  opened. Reading the kernel on the extended reals changed none of its operations, so there is nothing to preserve
  beyond the text itself.
-/
import proofs.«111160_j61486751809783_1_alg».proof.Defs
import proofs.«111160_j61486751809783_1_alg».proof.Proof.Gen.Kernel
import proofs.«111160_j61486751809783_1_alg».proof.Proof.Gen.Kernel.Skeleton
import proofs.«111160_j61486751809783_1_alg».proof.Proof.Gen.Kernel.Launch
import proofs.«111160_j61486751809783_1_alg».proof.Proof.Gen.Kernel.Points
import proofs.«111160_j61486751809783_1_alg».proof.Proof.Gen.Kernel.Frame
import proofs.«111160_j61486751809783_1_alg».proof.Proof.Gen.KernelIdeal
import proofs.«111160_j61486751809783_1_alg».proof.Proof.Gen.KernelIdeal.Skeleton
import proofs.«111160_j61486751809783_1_alg».proof.Proof.Gen.KernelIdeal.Launch
import proofs.«111160_j61486751809783_1_alg».proof.Proof.Gen.KernelIdeal.Points
import proofs.«111160_j61486751809783_1_alg».proof.Proof.Gen.KernelIdeal.Frame
import proofs.«111160_j61486751809783_1_alg».proof.Proof.Gen.ReferenceIdeal
import proofs.«111160_j61486751809783_1_alg».proof.Proof.Gen.Pre_finite_inputs
import proofs.«111160_j61486751809783_1_alg».proof.Proof.Gen.KernelIdeal.Value
import proofs.«111160_j61486751809783_1_alg».proof.Proof.Gen.ReferenceIdeal.Run
import proofs.«111160_j61486751809783_1_alg».proof.Proof.Gen.ReferenceIdeal.Read
import proofs.«111160_j61486751809783_1_alg».proof.Proof.KernelArrays
import proofs.«111160_j61486751809783_1_alg».proof.Proof.RefEntry
import Idealize.ShloMosaic.Adequacy
import Idealize.ShloMosaic.Init

noncomputable section

namespace Cert.Proof

open Idealize.ShloMosaic Idealize.SL.Sem Cert.Kernel

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel on the extended reals is the kernel's own text: no operation was replaced, the claim is empty. -/
theorem preserves : Cert.preserves_Kernel_KernelIdeal := trivial

/-- From arguments that agree, the kernel's two result arrays and the reference's two results are the cell's new hidden
    state and new cell state of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.ReferenceIdeal.Entry.refH, a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v34_eq, Cert.ReferenceIdeal.Entry.refC, a0, a1, a2, a3, a4, a5, a6, a7, a8, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
